-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : IVec S2x800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S100000x128, .bf16⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .bf16⟩
  | .hbm, ⟨22, _⟩ => ⟨S800000x128, .f32⟩
  | .hbm, ⟨23, _⟩ => ⟨S_, .f32⟩
  | .hbm, ⟨24, _⟩ => ⟨S100000x128, .f32⟩
  | .hbm, ⟨25, _⟩ => ⟨S800000x1, .i32⟩
  | .hbm, ⟨26, _⟩ => ⟨S100000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S100000, .f32⟩
  | .hbm, ⟨31, _⟩ => ⟨S800000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .bf16⟩
  | .hbm, ⟨49, _⟩ => ⟨S800000x128, .f32⟩
  | .hbm, ⟨50, _⟩ => ⟨S_, .f32⟩
  | .hbm, ⟨51, _⟩ => ⟨S100000x128, .f32⟩
  | .hbm, ⟨52, _⟩ => ⟨S800000x1, .i32⟩
  | .hbm, ⟨53, _⟩ => ⟨S100000x128, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S100000, .f32⟩
  | .hbm, ⟨58, _⟩ => ⟨S800000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S_, .f32⟩
  | .hbm, ⟨68, _⟩ => ⟨S128x128, .f32⟩
  | .hbm, ⟨69, _⟩ => ⟨S128x128, .f32⟩
  | .hbm, ⟨70, _⟩ => ⟨S_, .f32⟩
  | .hbm, ⟨71, _⟩ => ⟨S128x128, .f32⟩
  | .hbm, ⟨72, _⟩ => ⟨S128x128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x1, .f32⟩
  | .local _ .vmem, ⟨7, _⟩ => ⟨S4000x1, .f32⟩
  | .local _ .vmem, ⟨8, _⟩ => ⟨S4000x1, .f32⟩
  | .local _ .vmem, ⟨9, _⟩ => ⟨S4000x1, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_12 : Ref sig .tc := ⟨.hbm, 67, rfl⟩
abbrev main_v45 : Ref sig .tc := ⟨.hbm, 68, rfl⟩
abbrev main_v46 : Ref sig .tc := ⟨.hbm, 69, rfl⟩
abbrev main_cst_13 : Ref sig .tc := ⟨.hbm, 70, rfl⟩
abbrev main_v47 : Ref sig .tc := ⟨.hbm, 71, rfl⟩
abbrev main_v48 : Ref sig .tc := ⟨.hbm, 72, rfl⟩
abbrev main_cst_14 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_15 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S128x128 : S_.BroadcastsInDim S128x128 (![] : Fin 0 → Fin S128x128.rank)
  bcast_S_S128 : S_.BroadcastsInDim S128 (![] : Fin 0 → Fin S128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S100000x1.size a
  hwx0_4 : ∀ i : grid0.Coords, EltTy.bits .f32 = 32 ∨ (Rect.block (s := S100000x1) S4000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v44) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v46) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v48) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v55) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v56) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S100000x128, .f32⟩
  | .hbm, ⟨23, _⟩ => ⟨S800000x1, .i32⟩
  | .hbm, ⟨24, _⟩ => ⟨S100000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S100000, .f32⟩
  | .hbm, ⟨29, _⟩ => ⟨S800000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S100000x128, .f32⟩
  | .hbm, ⟨48, _⟩ => ⟨S800000x1, .i32⟩
  | .hbm, ⟨49, _⟩ => ⟨S100000x128, .f32⟩
  | .hbm, ⟨50, _⟩ => ⟨S_, .f32⟩
  | .hbm, ⟨51, _⟩ => ⟨S800000, .f32⟩
  | .hbm, ⟨52, _⟩ => ⟨S_, .f32⟩
  | .hbm, ⟨53, _⟩ => ⟨S100000, .f32⟩
  | .hbm, ⟨54, _⟩ => ⟨S800000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.BodyEntry.lean ====
/-
  One entry of what the kernel body stores, as a function of the blocks it loads.

  For a block of 4000 rows the body forms three 4000×128 by 128×128 products — of the feature rows, of the in-neighbour
  sums scaled row by row by a column of reciprocals, and of the out-neighbour sums scaled likewise — adds them, and adds
  one bias row to every row.  The roundings to the narrow float format in between are the identity on extended reals,
  and each product into a zero accumulator is a plain sum over the contracted coordinate.
-/
import proofs.«123563_j57432302682548_2_alg».proof.Proof.Gen.KernelIdeal.Skeleton
import proofs.«123563_j57432302682548_2_alg».proof.Proof.LibContractPlain
import proofs.«123563_j57432302682548_2_alg».proof.Proof.LibKeepdims
import Idealize.ShloMosaic.Lib.ValueIdx
import Idealize.ShloMosaic.Lib.ValueLayout
import Idealize.ShloMosaic.Lib.Pipeline.Value

noncomputable section

namespace Cert.Combine.Body

open Cert.KernelIdeal Cert.KernelIdeal.Gen Idealize.ShloMosaic Idealize.ShloMosaic.ValueIdx

/-- Entry (p, q) of the stored block: the three row-by-column sums and the bias entry of column q. -/
theorem stored_entry (x s t : Vec Ideal S4000x128 .f32) (ri ro : Vec Ideal S4000x1 .f32)
    (w1 w3 w5 : Vec Ideal S128x128 .f32) (b : Vec Ideal S1x128 .f32) (p : Fin 4000) (q : Fin 128) :
    k0_pay1 (F := Ideal) x s ri t ro w1 w3 w5 b (ix2 p q)
      = ((∑ c : Fin 128, x (ix2 p c) * w1 (ix2 c q)
          + ∑ c : Fin 128, (s (ix2 p c) * ri (ix2 p (0 : Fin 1))) * w3 (ix2 c q))
          + ∑ c : Fin 128, (t (ix2 p c) * ro (ix2 p (0 : Fin 1))) * w5 (ix2 c q))
        + b (ix2 (0 : Fin 1) q) := by
  unfold k0_pay1
  rw [addf_apply, addf_apply, addf_apply,
    Cert.Lib.ContractPlain.matmulZero_apply dot_S4000x128_S128x128_S4000x128_1_0_0_1_n_n rfl none,
    Cert.Lib.ContractPlain.matmulZero_apply dot_S4000x128_S128x128_S4000x128_1_0_0_1_n_n rfl none,
    Cert.Lib.ContractPlain.matmulZero_apply dot_S4000x128_S128x128_S4000x128_1_0_0_1_n_n rfl none]
  simp only [truncf_apply, mulf_apply, shapeCast_self, Cert.Keepdims.broadcastTo_a1_ab_apply,
    broadcastTo_1b_ab_apply]

end Cert.Combine.Body

end
-- ==== Proof.Spec.lean ====
/-
  What both programs compute, as one function of the argument arrays and of the four neighbour aggregates.

  X is the node-feature matrix (100000 nodes, 128 features).  Sin and Sout hold, per node, the sum of the features of
  its in-neighbours and of its out-neighbours; Min and Mout the number of such neighbours clamped below by one.
  Entry (n, j) of the result is

      (X W₁ + b₂)(n, j) + ½ · ((Sin / Min) W₃ + b₄)(n, j) + ½ · ((Sout / Mout) W₅ + b₆)(n, j),

  every product and sum taken on the extended reals, the quotient the ideal division, ½ the value of the float 0.5.
-/
import Idealize.ShloMosaic.PureOps.Ideal
import Idealize.ShloMosaic.Lib.ValueIdx

noncomputable section

namespace Cert.Combine

open Idealize.ShloMosaic Idealize.ShloMosaic.ValueIdx

/-- An a × b array of extended reals. -/
abbrev Mat (a b : ℕ) := (⟨2, ![a, b]⟩ : Shape).Idx → EReal
/-- A vector of a extended reals. -/
abbrev Vc (a : ℕ) := (⟨1, ![a]⟩ : Shape).Idx → EReal

/-- The mixing weight of the two directions: the value of the float 0.5. -/
def half : EReal := Ideal.ofBits .f32 0x3F000000#32

/-- Entry (n, j) of the combined layer output. -/
def entry (X Sin Sout : Mat 100000 128) (Min Mout : Vc 100000) (W1 W3 W5 : Mat 128 128) (b2 b4 b6 : Vc 128)
    (n : Fin 100000) (j : Fin 128) : EReal :=
  ((∑ k : Fin 128, X (ix2 n k) * W1 (ix2 k j) + b2 (ix1 j))
      + half * (∑ k : Fin 128, Ideal.div (Sin (ix2 n k)) (Min (ix1 n)) * W3 (ix2 k j) + b4 (ix1 j)))
    + half * (∑ k : Fin 128, Ideal.div (Sout (ix2 n k)) (Mout (ix1 n)) * W5 (ix2 k j) + b6 (ix1 j))

/-- The combined layer output as a whole array. -/
def combined (X Sin Sout : Mat 100000 128) (Min Mout : Vc 100000) (W1 W3 W5 : Mat 128 128) (b2 b4 b6 : Vc 128) :
    Mat 100000 128 :=
  fun i => entry X Sin Sout Min Mout W1 W3 W5 b2 b4 b6 (i 0) (i 1)

/-- Entry (n, j) in the fused arrangement: Ri and Ro are columns of per-node factors that scale the rows of S and T
    before the products, W3 and W5 are used as given, and one bias row B is added at the end. -/
def fusedEntry (X S T : Mat 100000 128) (Ri Ro : Mat 100000 1) (W1 W3 W5 : Mat 128 128) (B : Mat 1 128)
    (n : Fin 100000) (j : Fin 128) : EReal :=
  ((∑ k : Fin 128, X (ix2 n k) * W1 (ix2 k j)
      + ∑ k : Fin 128, (S (ix2 n k) * Ri (ix2 n (0 : Fin 1))) * W3 (ix2 k j))
      + ∑ k : Fin 128, (T (ix2 n k) * Ro (ix2 n (0 : Fin 1))) * W5 (ix2 k j))
    + B (ix2 (0 : Fin 1) j)

/-- The fused arrangement as a whole array. -/
def fused (X S T : Mat 100000 128) (Ri Ro : Mat 100000 1) (W1 W3 W5 : Mat 128 128) (B : Mat 1 128) : Mat 100000 128 :=
  fun i => fusedEntry X S T Ri Ro W1 W3 W5 B (i 0) (i 1)

end Cert.Combine

end
-- ==== Proof.KernelArray.lean ====
/-
  From the blocks the kernel writes to the whole result array.

  The grid has 25 points; point t works on rows 4000·t … 4000·t + 3999.  It is handed those rows of the features, of the
  two neighbour-sum arrays and of the two factor columns, and the whole of the three weight matrices and of the bias row,
  and it writes back those rows of the result.  So what point t writes is rows 4000·t … of the fused arrangement of the
  nine arrays as the region finds them, the 25 row blocks cover all 100000 rows, and after the run the result array is
  that fused arrangement.
-/
import proofs.«123563_j57432302682548_2_alg».proof.Proof.Gen.KernelIdeal.Value
import proofs.«123563_j57432302682548_2_alg».proof.Proof.BodyEntry
import proofs.«123563_j57432302682548_2_alg».proof.Proof.Spec

set_option maxRecDepth 16384

noncomputable section

namespace Cert.Combine.Region

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offset : (![0, 0] : Fin 2 → Nat) = fun _ => 0 := funext fun a => by fin_cases a <;> rfl

/-- The printed index maps over the 25 grid points: the six row-blocked windows sit at block (t, 0), the four whole-array
    windows at block (0, 0). -/
theorem index_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- One stored entry, over plain variables: if the loaded blocks are the named rows of nine arrays, entry (p, q) of the
    stored block is entry (n, q) of the arrays' fused arrangement. -/
theorem point_entry (x s t' : Vec Ideal S4000x128 .f32) (ri ro : Vec Ideal S4000x1 .f32)
    (w1 w3 w5 : Vec Ideal S128x128 .f32) (b : Vec Ideal S1x128 .f32)
    (X S T : Mat 100000 128) (Ri Ro : Mat 100000 1) (W1 W3 W5 : Mat 128 128) (B : Mat 1 128)
    (p : Fin 4000) (q : Fin 128) (n : Fin 100000)
    (hx : ∀ k : Fin 128, x (ix2 p k) = X (ix2 n k)) (hs : ∀ k : Fin 128, s (ix2 p k) = S (ix2 n k))
    (ht : ∀ k : Fin 128, t' (ix2 p k) = T (ix2 n k))
    (hri : ri (ix2 p (0 : Fin 1)) = Ri (ix2 n (0 : Fin 1))) (hro : ro (ix2 p (0 : Fin 1)) = Ro (ix2 n (0 : Fin 1)))
    (hw1 : ∀ k j : Fin 128, w1 (ix2 k j) = W1 (ix2 k j)) (hw3 : ∀ k j : Fin 128, w3 (ix2 k j) = W3 (ix2 k j))
    (hw5 : ∀ k j : Fin 128, w5 (ix2 k j) = W5 (ix2 k j))
    (hb : ∀ j : Fin 128, b (ix2 (0 : Fin 1) j) = B (ix2 (0 : Fin 1) j)) :
    k0_pay1 (F := Ideal) x s ri t' ro w1 w3 w5 b (ix2 p q) = fusedEntry X S T Ri Ro W1 W3 W5 B n q := by
  rw [Body.stored_entry]
  unfold fusedEntry
  simp only [hx, hs, ht, hri, hro, hw1, hw3, hw5, hb]

/-! Reading a window's block at a point, for any array in the window's place: which entry of the array each entry of the
    block is.  (The arrays themselves never matter here, so they are variables.) -/

/-- Row p of point t's block of window 0 (the features) is row 4000·t + p of the array. -/
theorem read_rows_0 (t : Fin cfg0.N) (G : S100000x128.Idx → EReal) (p : Fin 4000) (k : Fin 128) (n : Fin 100000)
    (hn : n.val = t.val * 4000 + p.val) :
    ((cfg0.win 0).blk t).view.read (Elt Ideal) G (ix2 p k) = G (ix2 n k) := by
  obtain ⟨f90, f91, f00, f01, f10, f11, f20, f21, -⟩ := index_facts t
  show G (((cfg0.win 0).blk t).view.emb (ix2 p k)) = _
  refine congrArg G (funext fun a => Fin.ext ?_)
  match a with
  | ⟨0, _⟩ => show win0_0.index t (0 : Fin 2) * 4000 + 1 * p.val = n.val; omega
  | ⟨1, _⟩ => show win0_0.index t (1 : Fin 2) * 128 + 1 * k.val = k.val; omega

/-- Row p of point t's block of window 1 (the in-neighbour sums) is row 4000·t + p of the array. -/
theorem read_rows_1 (t : Fin cfg0.N) (G : S100000x128.Idx → EReal) (p : Fin 4000) (k : Fin 128) (n : Fin 100000)
    (hn : n.val = t.val * 4000 + p.val) :
    ((cfg0.win 1).blk t).view.read (Elt Ideal) G (ix2 p k) = G (ix2 n k) := by
  obtain ⟨f90, f91, f00, f01, f10, f11, f20, f21, -⟩ := index_facts t
  show G (((cfg0.win 1).blk t).view.emb (ix2 p k)) = _
  refine congrArg G (funext fun a => Fin.ext ?_)
  match a with
  | ⟨0, _⟩ => show win0_1.index t (0 : Fin 2) * 4000 + 1 * p.val = n.val; omega
  | ⟨1, _⟩ => show win0_1.index t (1 : Fin 2) * 128 + 1 * k.val = k.val; omega

/-- Row p of point t's block of window 2 (the out-neighbour sums) is row 4000·t + p of the array. -/
theorem read_rows_2 (t : Fin cfg0.N) (G : S100000x128.Idx → EReal) (p : Fin 4000) (k : Fin 128) (n : Fin 100000)
    (hn : n.val = t.val * 4000 + p.val) :
    ((cfg0.win 2).blk t).view.read (Elt Ideal) G (ix2 p k) = G (ix2 n k) := by
  obtain ⟨f90, f91, f00, f01, f10, f11, f20, f21, -⟩ := index_facts t
  show G (((cfg0.win 2).blk t).view.emb (ix2 p k)) = _
  refine congrArg G (funext fun a => Fin.ext ?_)
  match a with
  | ⟨0, _⟩ => show win0_2.index t (0 : Fin 2) * 4000 + 1 * p.val = n.val; omega
  | ⟨1, _⟩ => show win0_2.index t (1 : Fin 2) * 128 + 1 * k.val = k.val; omega

/-- Entry p of point t's block of window 3 (the in-direction factors) is entry 4000·t + p of the column. -/
theorem read_col_3 (t : Fin cfg0.N) (G : S100000x1.Idx → EReal) (p : Fin 4000) (n : Fin 100000)
    (hn : n.val = t.val * 4000 + p.val) :
    ((cfg0.win 3).blk t).view.read (Elt Ideal) G (ix2 p (0 : Fin 1)) = G (ix2 n (0 : Fin 1)) := by
  obtain ⟨f90, f91, f00, f01, f10, f11, f20, f21, f30, f31, f40, f41, -⟩ := index_facts t
  show G (((cfg0.win 3).blk t).view.emb (ix2 p (0 : Fin 1))) = _
  refine congrArg G (funext fun a => Fin.ext ?_)
  match a with
  | ⟨0, _⟩ => show win0_3.index t (0 : Fin 2) * 4000 + 1 * p.val = n.val; omega
  | ⟨1, _⟩ => show win0_3.index t (1 : Fin 2) * 1 + 1 * 0 = 0; omega

/-- Entry p of point t's block of window 4 (the out-direction factors) is entry 4000·t + p of the column. -/
theorem read_col_4 (t : Fin cfg0.N) (G : S100000x1.Idx → EReal) (p : Fin 4000) (n : Fin 100000)
    (hn : n.val = t.val * 4000 + p.val) :
    ((cfg0.win 4).blk t).view.read (Elt Ideal) G (ix2 p (0 : Fin 1)) = G (ix2 n (0 : Fin 1)) := by
  obtain ⟨f90, f91, f00, f01, f10, f11, f20, f21, f30, f31, f40, f41, -⟩ := index_facts t
  show G (((cfg0.win 4).blk t).view.emb (ix2 p (0 : Fin 1))) = _
  refine congrArg G (funext fun a => Fin.ext ?_)
  match a with
  | ⟨0, _⟩ => show win0_4.index t (0 : Fin 2) * 4000 + 1 * p.val = n.val; omega
  | ⟨1, _⟩ => show win0_4.index t (1 : Fin 2) * 1 + 1 * 0 = 0; omega

/-- Every point's block of window 5 (the self weights) is the whole matrix. -/
theorem read_whole_5 (t : Fin cfg0.N) (G : S128x128.Idx → EReal) (k j : Fin 128) :
    ((cfg0.win 5).blk t).view.read (Elt Ideal) G (ix2 k j) = G (ix2 k j) := by
  obtain ⟨f90, f91, f00, f01, f10, f11, f20, f21, f30, f31, f40, f41, f50, f51, f60, f61, f70, f71, f80, f81⟩ := index_facts t
  show G (((cfg0.win 5).blk t).view.emb (ix2 k j)) = _
  refine congrArg G (funext fun a => Fin.ext ?_)
  match a with
  | ⟨0, _⟩ => show win0_5.index t (0 : Fin 2) * 128 + 1 * k.val = k.val; omega
  | ⟨1, _⟩ => show win0_5.index t (1 : Fin 2) * 128 + 1 * j.val = j.val; omega

/-- Every point's block of window 6 (the in-direction weights) is the whole matrix. -/
theorem read_whole_6 (t : Fin cfg0.N) (G : S128x128.Idx → EReal) (k j : Fin 128) :
    ((cfg0.win 6).blk t).view.read (Elt Ideal) G (ix2 k j) = G (ix2 k j) := by
  obtain ⟨f90, f91, f00, f01, f10, f11, f20, f21, f30, f31, f40, f41, f50, f51, f60, f61, f70, f71, f80, f81⟩ := index_facts t
  show G (((cfg0.win 6).blk t).view.emb (ix2 k j)) = _
  refine congrArg G (funext fun a => Fin.ext ?_)
  match a with
  | ⟨0, _⟩ => show win0_6.index t (0 : Fin 2) * 128 + 1 * k.val = k.val; omega
  | ⟨1, _⟩ => show win0_6.index t (1 : Fin 2) * 128 + 1 * j.val = j.val; omega

/-- Every point's block of window 7 (the out-direction weights) is the whole matrix. -/
theorem read_whole_7 (t : Fin cfg0.N) (G : S128x128.Idx → EReal) (k j : Fin 128) :
    ((cfg0.win 7).blk t).view.read (Elt Ideal) G (ix2 k j) = G (ix2 k j) := by
  obtain ⟨f90, f91, f00, f01, f10, f11, f20, f21, f30, f31, f40, f41, f50, f51, f60, f61, f70, f71, f80, f81⟩ := index_facts t
  show G (((cfg0.win 7).blk t).view.emb (ix2 k j)) = _
  refine congrArg G (funext fun a => Fin.ext ?_)
  match a with
  | ⟨0, _⟩ => show win0_7.index t (0 : Fin 2) * 128 + 1 * k.val = k.val; omega
  | ⟨1, _⟩ => show win0_7.index t (1 : Fin 2) * 128 + 1 * j.val = j.val; omega

/-- Every point's block of window 8 (the bias row) is the whole row. -/
theorem read_whole_8 (t : Fin cfg0.N) (G : S1x128.Idx → EReal) (j : Fin 128) :
    ((cfg0.win 8).blk t).view.read (Elt Ideal) G (ix2 (0 : Fin 1) j) = G (ix2 (0 : Fin 1) j) := by
  obtain ⟨f90, f91, f00, f01, f10, f11, f20, f21, f30, f31, f40, f41, f50, f51, f60, f61, f70, f71, f80, f81⟩ := index_facts t
  show G (((cfg0.win 8).blk t).view.emb (ix2 (0 : Fin 1) j)) = _
  refine congrArg G (funext fun a => Fin.ext ?_)
  match a with
  | ⟨0, _⟩ => show win0_8.index t (0 : Fin 2) * 1 + 1 * 0 = 0; omega
  | ⟨1, _⟩ => show win0_8.index t (1 : Fin 2) * 128 + 1 * j.val = j.val; omega

set_option maxHeartbeats 1000000 in
/-- What point t writes back is block t of the fused arrangement of the nine arrays as the region finds them. -/
theorem flushed_eq (c : Dev nD) (t : Fin cfg0.N) :
    (dats m 0 c).flushed 9 t = ((cfg0.win 9).blk t).view.read (Elt Ideal)
      (fused (V m c main_arg0) (V m c main_v15) (V m c main_v35) (V m c main_v24) (V m c main_v44) (V m c main_arg1) (V m c main_v46) (V m c main_v48) (V m c main_v55)) := by
  rw [Cert.KernelIdeal.Value.flushed9]
  unfold out0_9
  rw [View.canon_unit_zero zero_offset]
  simp only [View.ld_unit_zero (S := S4000x128) zero_offset, View.ld_unit_zero (S := S4000x1) zero_offset,
    View.ld_unit_zero (S := S128x128) zero_offset, View.ld_unit_zero (S := S1x128) zero_offset]
  obtain ⟨f90, f91, -⟩ := index_facts t
  have ht25 : t.val < 25 := t.isLt
  funext y
  obtain ⟨p, q, rfl⟩ : ∃ (p : Fin 4000) (q : Fin 128), y = ix2 p q := ⟨y 0, y 1, eq_ix2 y⟩
  have hp : p.val < 4000 := p.isLt
  let n : Fin 100000 := ⟨t.val * 4000 + p.val, by omega⟩
  have hn : n.val = t.val * 4000 + p.val := rfl
  have hidx : ((cfg0.win 9).blk t).view.emb (ix2 p q) = (ix2 n q : S100000x128.Idx) := by
    refine funext fun a => Fin.ext ?_
    match a with
    | ⟨0, _⟩ => show win0_9.index t (0 : Fin 2) * 4000 + 1 * p.val = n.val; omega
    | ⟨1, _⟩ => show win0_9.index t (1 : Fin 2) * 128 + 1 * q.val = q.val; omega
  show k0_pay1 (F := Ideal) (iblk m c 0 t) (iblk m c 1 t) (iblk m c 3 t) (iblk m c 2 t) (iblk m c 4 t) (iblk m c 5 t)
      (iblk m c 6 t) (iblk m c 7 t) (iblk m c 8 t) (ix2 p q)
    = fused (V m c main_arg0) (V m c main_v15) (V m c main_v35) (V m c main_v24) (V m c main_v44) (V m c main_arg1) (V m c main_v46) (V m c main_v48) (V m c main_v55) (((cfg0.win 9).blk t).view.emb (ix2 p q))
  rw [hidx]
  show _ = fusedEntry (V m c main_arg0) (V m c main_v15) (V m c main_v35) (V m c main_v24) (V m c main_v44) (V m c main_arg1) (V m c main_v46) (V m c main_v48) (V m c main_v55) n q
  exact point_entry (iblk m c 0 t) (iblk m c 1 t) (iblk m c 2 t) (iblk m c 3 t) (iblk m c 4 t) (iblk m c 5 t)
    (iblk m c 6 t) (iblk m c 7 t) (iblk m c 8 t) (V m c main_arg0) (V m c main_v15) (V m c main_v35) (V m c main_v24) (V m c main_v44) (V m c main_arg1) (V m c main_v46) (V m c main_v48) (V m c main_v55) p q n
    (fun k => read_rows_0 t (V m c main_arg0) p k n hn) (fun k => read_rows_1 t (V m c main_v15) p k n hn)
    (fun k => read_rows_2 t (V m c main_v35) p k n hn)
    (read_col_3 t (V m c main_v24) p n hn) (read_col_4 t (V m c main_v44) p n hn)
    (fun k j => read_whole_5 t (V m c main_arg1) k j) (fun k j => read_whole_6 t (V m c main_v46) k j)
    (fun k j => read_whole_7 t (V m c main_v48) k j) (fun j => read_whole_8 t (V m c main_v55) j)

/-- An index of the result array lies in point t's block iff each coordinate lies in the block's range on its axis. -/
theorem mem_block (t : Fin cfg0.N) (i : S100000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v56).slice (win0_9.rect t)).set ↔ _
  rw [View.set_slice_whole, Rect.mem_set_unit]
  exact Iff.rfl

/-- Every index of the result array lies in the block of the point its row falls into: row r is point r / 4000's. -/
theorem covered (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  have htv : t.val = (i 0).val / 4000 := rfl
  obtain ⟨f90, f91, -⟩ := index_facts t
  refine ⟨t, flush0_9 t, ?_⟩
  rw [mem_block]
  intro a
  match a with
  | ⟨0, _⟩ => show win0_9.index t (0 : Fin 2) * 4000 ≤ (i 0).val ∧ (i 0).val < win0_9.index t (0 : Fin 2) * 4000 + 4000; omega
  | ⟨1, _⟩ => show win0_9.index t (1 : Fin 2) * 128 ≤ (i 1).val ∧ (i 1).val < win0_9.index t (1 : Fin 2) * 128 + 128; omega

/-- After the run the result array is the fused arrangement of the nine arrays as the region finds them. -/
theorem final (c : Dev nD) : (dats m 0 c).arrAt 9 cfg0.N = fused (V m c main_arg0) (V m c main_v15) (V m c main_v35) (V m c main_v24) (V m c main_v44) (V m c main_arg1) (V m c main_v46) (V m c main_v48) (V m c main_v55) :=
  (dats m 0 c).arrAt_eq_of_cover 9 _ (fun t _ => flushed_eq m c t) covered

/-- The kernel's run: it terminates, the result array ends at the fused arrangement, the arguments are unchanged. -/
theorem run : θ_run defs (onTc (τ := τ) (main (F := Ideal))) ⟨m, fun _ => 0, ρ⟩ fun r => ∀ c : Dev nD,
      r.2.mem ((c : Thread nD τ).loc main_v56) = fused (V m c main_arg0) (V m c main_v15) (V m c main_v35) (V m c main_v24) (V m c main_v44) (V m c main_arg1) (V m c main_v46) (V m c main_v48) (V m c main_v55)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.Combine.Region

end
-- ==== Proof.HostSums.lean ====
/-
  The two neighbour-sum arrays the kernel's wrapper computes before the launch are the reference's own.

  The wrapper rounds the features to the narrow float format, gathers the rows named by one row of the edge list,
  widens them again and adds them up at the nodes named by the other row.  On extended reals the two format changes are
  the identity, so the result is the same term as the reference's gather and scatter-add of the unrounded features.
-/
import proofs.«123563_j57432302682548_2_alg».proof.Proof.Gen.KernelIdeal.Frame
import proofs.«123563_j57432302682548_2_alg».proof.Proof.Gen.ReferenceIdeal.Read
import Idealize.ShloMosaic.Lib.StableHlo.Run

noncomputable section

namespace Cert.Combine.Host

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 8000000 in
/-- The in-neighbour sums at region entry are the reference's. -/
theorem sums_in (c : Dev nD) : (V m c main_v15 : S100000x128.Idx → EReal)
    = Cert.ReferenceIdeal.Read.val_main_v13 (F := Ideal) (m ((c.tc : Thread nD τ).loc main_arg0)) (m ((c.tc : Thread nD τ).loc main_arg7)) := by
  dsimp only [Gen.V]
  after_results_simp
  rfl

set_option maxRecDepth 8192 in
set_option maxHeartbeats 8000000 in
/-- The out-neighbour sums at region entry are the reference's. -/
theorem sums_out (c : Dev nD) : (V m c main_v35 : S100000x128.Idx → EReal)
    = Cert.ReferenceIdeal.Read.val_main_v32 (F := Ideal) (m ((c.tc : Thread nD τ).loc main_arg0)) (m ((c.tc : Thread nD τ).loc main_arg7)) := by
  dsimp only [Gen.V]
  after_results_simp
  rfl

end Cert.Combine.Host

end
-- ==== Proof.HostFactors.lean ====
/-
  The two columns of per-node factors the kernel's wrapper computes before the launch: each is the column form of
  1 / max(count, 1), the count being the reference's own scatter-add of ones over one row of the edge list.
-/
import proofs.«123563_j57432302682548_2_alg».proof.Proof.Gen.KernelIdeal.Frame
import proofs.«123563_j57432302682548_2_alg».proof.Proof.Gen.ReferenceIdeal.Read
import Idealize.ShloMosaic.Lib.StableHlo.Run

noncomputable section

namespace Cert.Combine.Host

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 8000000 in
/-- The in-direction factors at region entry: the reciprocal of the reference's clamped in-degree, laid as a column. -/
theorem factors_in (c : Dev nD) : (V m c main_v24 : S100000x1.Idx → EReal)
    = (broadcastInDim S100000x1 ![0] bcast_S100000_S100000x1_0
        (Host.divf (F := Ideal) (s := S100000) (φ := .f32) (Cert.ReferenceIdeal.Read.val_main_v18 (F := Ideal))
          (Cert.ReferenceIdeal.Read.val_main_v19 (F := Ideal) (m ((c.tc : Thread nD τ).loc main_arg7)))) : S100000x1.Idx → EReal) := by
  dsimp only [Gen.V]
  after_results_simp
  rfl

set_option maxRecDepth 8192 in
set_option maxHeartbeats 8000000 in
/-- The out-direction factors at region entry: the reciprocal of the reference's clamped out-degree, laid as a column. -/
theorem factors_out (c : Dev nD) : (V m c main_v44 : S100000x1.Idx → EReal)
    = (broadcastInDim S100000x1 ![0] bcast_S100000_S100000x1_0
        (Host.divf (F := Ideal) (s := S100000) (φ := .f32) (Cert.ReferenceIdeal.Read.val_main_v37 (F := Ideal))
          (Cert.ReferenceIdeal.Read.val_main_v38 (F := Ideal) (m ((c.tc : Thread nD τ).loc main_arg7)))) : S100000x1.Idx → EReal) := by
  dsimp only [Gen.V]
  after_results_simp
  rfl

end Cert.Combine.Host

end
-- ==== Proof.HostWeights.lean ====
/-
  The scaled weights and the folded bias the kernel's wrapper computes before the launch: each neighbour weight matrix
  times a splat of 0.5, and the bias (b₂ + 0.5·b₄) + 0.5·b₆ re-laid as one row.
-/
import proofs.«123563_j57432302682548_2_alg».proof.Proof.Gen.KernelIdeal.Frame
import proofs.«123563_j57432302682548_2_alg».proof.Proof.Gen.ReferenceIdeal.Read
import Idealize.ShloMosaic.Lib.StableHlo.Run

noncomputable section

namespace Cert.Combine.Host

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 8000000 in
/-- The in-direction weights at region entry: 0.5 times the argument matrix. -/
theorem weights_in (c : Dev nD) : (V m c main_v46 : S128x128.Idx → EReal)
    = mulf (broadcastInDim S128x128 ![] bcast_S_S128x128 (constant (F := Ideal) S_ .f32 0x3F000000#32)) (m ((c.tc : Thread nD τ).loc main_arg3)) := by
  dsimp only [Gen.V]
  after_results_simp

set_option maxRecDepth 8192 in
set_option maxHeartbeats 8000000 in
/-- The out-direction weights at region entry: 0.5 times the argument matrix. -/
theorem weights_out (c : Dev nD) : (V m c main_v48 : S128x128.Idx → EReal)
    = mulf (broadcastInDim S128x128 ![] bcast_S_S128x128 (constant (F := Ideal) S_ .f32 0x3F000000#32)) (m ((c.tc : Thread nD τ).loc main_arg5)) := by
  dsimp only [Gen.V]
  after_results_simp

set_option maxRecDepth 8192 in
set_option maxHeartbeats 8000000 in
/-- The bias row at region entry: the folded bias vector cast to one row. -/
theorem bias_row (c : Dev nD) : (V m c main_v55 : S1x128.Idx → EReal)
    = shapeCast S1x128
        (addf (addf (m ((c.tc : Thread nD τ).loc main_arg2)) (mulf (broadcastInDim S128 ![] bcast_S_S128 (constant (F := Ideal) S_ .f32 0x3F000000#32)) (m ((c.tc : Thread nD τ).loc main_arg4))))
          (mulf (broadcastInDim S128 ![] bcast_S_S128 (constant (F := Ideal) S_ .f32 0x3F000000#32)) (m ((c.tc : Thread nD τ).loc main_arg6))))
        shapeCasts_S128_S1x128 := by
  dsimp only [Gen.V]
  after_results_simp
  rfl

end Cert.Combine.Host

end
-- ==== Proof.LibColumnInDim.lean ====
/-
  The column forms of `broadcast_in_dim`, read at an index given by coordinates: a vector `[n]` laid as the column
  `[n, 1]` (its axis sent to axis 0), and a column `[n, 1]` repeated along the rows to `[n, b]` (axes sent to
  themselves). This is how a per-row quantity — a row sum, a norm, a degree — is spread over a matrix when it is
  written `v[:, None]`: both read the operand at the row coordinate alone. (`n ≠ 1`: on an axis of extent one
  a broadcast reads coordinate 0 whatever the index, and the statements would need no hypothesis but another proof.)
-/
import Idealize.ShloMosaic.Lib.Pipeline.Value
import Idealize.ShloMosaic.Lib.ValueIdx

namespace Cert.Lib.ColumnInDim

open Idealize.ShloMosaic Idealize.ShloMosaic.ValueIdx

variable {α : Type}

/-- A vector `[n]` laid as the column `[n, 1]` reads, at `(P, u)`, the vector at `P`. -/
theorem column_apply {n : ℕ} (hn : n ≠ 1) (h : (⟨1, ![n]⟩ : Shape).BroadcastsInDim ⟨2, ![n, 1]⟩ ![0])
    (v : (⟨1, ![n]⟩ : Shape).Idx → α) (P : Fin n) (u : Fin 1) :
    broadcastInDim ⟨2, ![n, 1]⟩ ![0] h v (ix2 P u) = v (ix1 P) :=
  broadcastInDim_apply _ h v (ix2 P u) (ix1 P) (fun a => match a with
    | ⟨0, _⟩ => by show P.val = if n = 1 then 0 else P.val; rw [if_neg hn])

/-- A column `[n, 1]` repeated along the rows to `[n, b]` reads, at `(P, q)`, the column's entry of row `P`. -/
theorem spread_apply {n b : ℕ} (hn : n ≠ 1) (h : (⟨2, ![n, 1]⟩ : Shape).BroadcastsInDim ⟨2, ![n, b]⟩ ![0, 1])
    (v : (⟨2, ![n, 1]⟩ : Shape).Idx → α) (P : Fin n) (q : Fin b) :
    broadcastInDim ⟨2, ![n, b]⟩ ![0, 1] h v (ix2 P q) = v (ix2 P (0 : Fin 1)) :=
  broadcastInDim_apply _ h v (ix2 P q) (ix2 P (0 : Fin 1)) (fun a => match a with
    | ⟨0, _⟩ => by show P.val = if n = 1 then 0 else P.val; rw [if_neg hn]
    | ⟨1, _⟩ => by show 0 = if (1 : ℕ) = 1 then 0 else q.val; rw [if_pos rfl])

end Cert.Lib.ColumnInDim
-- ==== Proof.LibScaleSum.lean ====
/-
  Three small facts about the extended reals as the ideal float values, for certificates where one side scales a
  matrix product's weights (or a whole sum) by a constant and the other scales afterwards, or where one side divides and
  the other multiplies by a reciprocal.

  * A nonnegative real factor moves inside a finite sum of extended reals — also when the sum meets ⊤ + ⊥, because a
    nonnegative real factor distributes over every sum of two extended reals.
  * The ideal division by a divisor that is not zero is the product with the inverse.
  * A value clamped below by one (a count, a norm with a floor) is not zero.
-/
import Idealize.ShloMosaic.PureOps.Ideal

noncomputable section

namespace Cert.Lib.ScaleSum

open Idealize.ShloMosaic

/-- A nonnegative real factor moves inside a finite sum of extended reals. -/
theorem coe_mul_sum {ι : Type} (s : Finset ι) (h : ℝ) (hh : 0 ≤ h) (f : ι → EReal) :
    (h : EReal) * ∑ k ∈ s, f k = ∑ k ∈ s, (h : EReal) * f k := by
  classical
  induction s using Finset.induction_on with
  | empty => simp
  | insert a s ha ih =>
    rw [Finset.sum_insert ha, Finset.sum_insert ha,
      EReal.left_distrib_of_nonneg_of_ne_top (by exact_mod_cast hh) (EReal.coe_ne_top h), ih]

/-- Off zero the ideal quotient is the product with the inverse. -/
theorem div_of_ne_zero (x a : EReal) (ha : a ≠ 0) : Ideal.div x a = x * a⁻¹ := by
  rw [Ideal.div, if_neg ha]

/-- A value clamped below by one is not zero. -/
theorem max_one_ne_zero (x : EReal) : max x 1 ≠ 0 :=
  ne_of_gt (lt_of_lt_of_le zero_lt_one (le_max_right x 1))

end Cert.Lib.ScaleSum

end
-- ==== Proof.Algebra.lean ====
/-
  The one algebraic identity behind the combine step, on the extended reals.

  For one output entry, write x, s, t for a row of the node features and of the two neighbour sums, a and c for the
  two (clamped) neighbour counts of that node, w1, w3, w5 for a column of the three weight matrices, b2, b4, b6 for the
  three bias entries, and h for the mixing weight 1/2.  One side first normalises the sums by the reciprocals 1/a and
  1/c, multiplies by weights that were scaled by h beforehand, and adds one folded bias (b2 + h·b4) + h·b6.  The other
  divides the sums by a and c, multiplies by the plain weights, adds each bias to its own product and scales the two
  neighbour terms by h afterwards.  They agree because a nonnegative real factor distributes over every sum of
  extended reals (also over ⊤ + ⊥), because division by a nonzero extended real is the product with its inverse, and
  because addition and multiplication are commutative and associative; no entry has to be finite.
-/
import Idealize.ShloMosaic.PureOps.Ideal
import proofs.«123563_j57432302682548_2_alg».proof.Proof.LibScaleSum

noncomputable section

namespace Cert.Combine

open Idealize.ShloMosaic Cert.Lib.ScaleSum

/-- A sum normalised by the reciprocal 1/a and multiplied by weights scaled by h beforehand is h times the sum divided
    by a and multiplied by the plain weights. -/
theorem scaled_sum {K : ℕ} (u w : Fin K → EReal) (a : EReal) (ha : a ≠ 0) (h : ℝ) (hh : 0 ≤ h) :
    ∑ k, (u k * Ideal.div 1 a) * ((h : EReal) * w k) = (h : EReal) * ∑ k, Ideal.div (u k) a * w k := by
  rw [coe_mul_sum _ h hh]
  refine Finset.sum_congr rfl fun k _ => ?_
  rw [div_of_ne_zero _ _ ha, div_of_ne_zero _ _ ha, one_mul, mul_left_comm]

/-- The two arrangements of one output entry agree. -/
theorem row_combine {K : ℕ} (x s t w1 w3 w5 : Fin K → EReal) (b2 b4 b6 a c : EReal) (h : ℝ) (hh : 0 ≤ h)
    (ha : a ≠ 0) (hc : c ≠ 0) :
    ((∑ k, x k * w1 k + ∑ k, (s k * Ideal.div 1 a) * ((h : EReal) * w3 k))
        + ∑ k, (t k * Ideal.div 1 c) * ((h : EReal) * w5 k)) + ((b2 + (h : EReal) * b4) + (h : EReal) * b6)
      = ((∑ k, x k * w1 k + b2) + (h : EReal) * (∑ k, Ideal.div (s k) a * w3 k + b4))
        + (h : EReal) * (∑ k, Ideal.div (t k) c * w5 k + b6) := by
  have h0 : (0 : EReal) ≤ (h : EReal) := by exact_mod_cast hh
  rw [scaled_sum s w3 a ha h hh, scaled_sum t w5 c hc h hh,
    EReal.left_distrib_of_nonneg_of_ne_top h0 (EReal.coe_ne_top h),
    EReal.left_distrib_of_nonneg_of_ne_top h0 (EReal.coe_ne_top h)]
  ac_rfl

end Cert.Combine

end
-- ==== Proof.Consts.lean ====
/-
  The float constants the two programs spell, as the extended reals their bit patterns denote: 0.0, 1.0 (the clamp
  of a neighbour count and the numerator of its reciprocal) and 0.5 (the mixing weight of the two directions).
-/
import Idealize.ShloMosaic.PureOps.Ideal

noncomputable section

namespace Cert.Combine.Consts

open Idealize.ShloMosaic

/-- The pattern of `1.0` denotes the real 1. -/
theorem ofBits_one : Ideal.ofBits .f32 0x3F800000#32 = 1 := by
  simp [Ideal.ofBits, Ideal.ieee, -EReal.coe_mul]; norm_num

/-- The pattern of `0.5` denotes the real 1/2. -/
theorem ofBits_half : Ideal.ofBits .f32 0x3F000000#32 = ((1 / 2 : ℝ) : EReal) := by
  simp [Ideal.ofBits, Ideal.ieee, -EReal.coe_mul]; norm_num

end Cert.Combine.Consts

end
-- ==== Proof.HostEntries.lean ====
/-
  The region-entry arrays of the kernel read at one entry: each factor is the reciprocal of the reference's clamped count
  of that node, each scaled weight is 1/2-weight times the argument's entry, the bias row holds the folded bias; and a
  clamped count is never zero, being at least one.
-/
import proofs.«123563_j57432302682548_2_alg».proof.Proof.HostFactors
import proofs.«123563_j57432302682548_2_alg».proof.Proof.HostWeights
import proofs.«123563_j57432302682548_2_alg».proof.Proof.LibColumnInDim
import proofs.«123563_j57432302682548_2_alg».proof.Proof.Spec
import proofs.«123563_j57432302682548_2_alg».proof.Proof.Algebra
import proofs.«123563_j57432302682548_2_alg».proof.Proof.Consts
import Idealize.ShloMosaic.Lib.ValueIdx
import Idealize.ShloMosaic.Lib.IdealHost
import Idealize.ShloMosaic.Lib.ValueLayout
import Idealize.ShloMosaic.Lib.Pipeline.Value

noncomputable section

namespace Cert.Combine.Host

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The kernel's weight and bias arguments as plain arrays of extended reals. -/
abbrev argW3 (c : Dev nD) : S128x128.Idx → EReal := m ((c.tc : Thread nD τ).loc main_arg3)
abbrev argW5 (c : Dev nD) : S128x128.Idx → EReal := m ((c.tc : Thread nD τ).loc main_arg5)
abbrev argB2 (c : Dev nD) : S128.Idx → EReal := m ((c.tc : Thread nD τ).loc main_arg2)
abbrev argB4 (c : Dev nD) : S128.Idx → EReal := m ((c.tc : Thread nD τ).loc main_arg4)
abbrev argB6 (c : Dev nD) : S128.Idx → EReal := m ((c.tc : Thread nD τ).loc main_arg6)

/-- A scalar constant spread over any shape reads, everywhere, the value of its pattern. -/
theorem splat_apply {s : Shape} (h : S_.BroadcastsInDim s (![] : Fin 0 → Fin s.rank)) (w : BitVec 32) (i : s.Idx) :
    broadcastInDim s ![] h (constant (F := Ideal) S_ .f32 w) i = Ideal.ofBits .f32 w :=
  broadcastInDim_apply _ h _ i (fun a => a.elim0) (fun a => a.elim0)

/-- The reference's splat of 1.0 over the nodes reads 1 (in-direction). -/
theorem ones_in (i : Cert.ReferenceIdeal.S100000.Idx) :
    (Cert.ReferenceIdeal.Read.val_main_v18 (F := Ideal) i : EReal) = (1 : EReal) := by
  rw [Cert.ReferenceIdeal.Read.val_main_v18_apply, Cert.ReferenceIdeal.Read.val_main_cst_3_apply, Ideal.ofBits_def,
    Consts.ofBits_one]

/-- The reference's splat of 1.0 over the nodes reads 1 (out-direction). -/
theorem ones_out (i : Cert.ReferenceIdeal.S100000.Idx) :
    (Cert.ReferenceIdeal.Read.val_main_v37 (F := Ideal) i : EReal) = (1 : EReal) := by
  rw [Cert.ReferenceIdeal.Read.val_main_v37_apply, Cert.ReferenceIdeal.Read.val_main_cst_9_apply, Ideal.ofBits_def,
    Consts.ofBits_one]

/-- The reference's clamped in-degree is never zero. -/
theorem clamped_in_ne_zero (x7 : (⟨Cert.ReferenceIdeal.S2x800000, .i32⟩ : BufTy).Contents (Elt Ideal)) (n : Fin 100000) :
    Cert.ReferenceIdeal.Read.val_main_v19 (F := Ideal) x7 (ix1 n) ≠ 0 := by
  rw [Cert.ReferenceIdeal.Read.val_main_v19_apply, Ideal.maximumf_def, ones_in]
  exact Cert.Lib.ScaleSum.max_one_ne_zero _

/-- The reference's clamped out-degree is never zero. -/
theorem clamped_out_ne_zero (x7 : (⟨Cert.ReferenceIdeal.S2x800000, .i32⟩ : BufTy).Contents (Elt Ideal)) (n : Fin 100000) :
    Cert.ReferenceIdeal.Read.val_main_v38 (F := Ideal) x7 (ix1 n) ≠ 0 := by
  rw [Cert.ReferenceIdeal.Read.val_main_v38_apply, Ideal.maximumf_def, ones_out]
  exact Cert.Lib.ScaleSum.max_one_ne_zero _

/-- The in-direction factor of node n is 1 over the reference's clamped in-degree of n. -/
theorem factor_in_entry (c : Dev nD) (n : Fin 100000) :
    (V m c main_v24 : S100000x1.Idx → EReal) (ix2 n (0 : Fin 1))
      = Ideal.div 1 (Cert.ReferenceIdeal.Read.val_main_v19 (F := Ideal) (m ((c.tc : Thread nD τ).loc main_arg7)) (ix1 n)) := by
  refine (congrFun (factors_in m c) (ix2 n (0 : Fin 1))).trans ?_
  refine (Cert.Lib.ColumnInDim.column_apply (n := 100000) (by omega) bcast_S100000_S100000x1_0 _ n (0 : Fin 1)).trans ?_
  refine (hostDivf_apply _ _ _).trans ?_
  rw [ones_in]

/-- The out-direction factor of node n is 1 over the reference's clamped out-degree of n. -/
theorem factor_out_entry (c : Dev nD) (n : Fin 100000) :
    (V m c main_v44 : S100000x1.Idx → EReal) (ix2 n (0 : Fin 1))
      = Ideal.div 1 (Cert.ReferenceIdeal.Read.val_main_v38 (F := Ideal) (m ((c.tc : Thread nD τ).loc main_arg7)) (ix1 n)) := by
  refine (congrFun (factors_out m c) (ix2 n (0 : Fin 1))).trans ?_
  refine (Cert.Lib.ColumnInDim.column_apply (n := 100000) (by omega) bcast_S100000_S100000x1_0 _ n (0 : Fin 1)).trans ?_
  refine (hostDivf_apply _ _ _).trans ?_
  rw [ones_out]

/-- An entry of the scaled in-direction weights is one half of the argument's entry. -/
theorem weight_in_entry (c : Dev nD) (k j : Fin 128) :
    (V m c main_v46 : S128x128.Idx → EReal) (ix2 k j)
      = half * argW3 m c (ix2 k j) := by
  rw [weights_in m c, mulf_apply, splat_apply]
  rfl

/-- An entry of the scaled out-direction weights is one half of the argument's entry. -/
theorem weight_out_entry (c : Dev nD) (k j : Fin 128) :
    (V m c main_v48 : S128x128.Idx → EReal) (ix2 k j)
      = half * argW5 m c (ix2 k j) := by
  rw [weights_out m c, mulf_apply, splat_apply]
  rfl

/-- Entry j of the bias row is the folded bias (b₂ + ½ b₄) + ½ b₆ at j. -/
theorem bias_entry (c : Dev nD) (j : Fin 128) :
    (V m c main_v55 : S1x128.Idx → EReal) (ix2 (0 : Fin 1) j)
      = (argB2 m c (ix1 j) + half * argB4 m c (ix1 j)) + half * argB6 m c (ix1 j) := by
  rw [bias_row m c, shapeCast_a_1a_apply, addf_apply, addf_apply, mulf_apply, mulf_apply, splat_apply]
  rfl

end Cert.Combine.Host

end
-- ==== Proof.Bridge.lean ====
/-
  The fused arrangement equals the combined layer output when its per-node factors are the reciprocals of the clamped
  counts, its two neighbour weight matrices are the plain ones scaled by 1/2, and its bias row is the folded bias
  (b₂ + ½ b₄) + ½ b₆.  Entry by entry this is the identity of the algebra module, at h = 1/2.
-/
import proofs.«123563_j57432302682548_2_alg».proof.Proof.Spec
import proofs.«123563_j57432302682548_2_alg».proof.Proof.Algebra
import proofs.«123563_j57432302682548_2_alg».proof.Proof.Consts

noncomputable section

namespace Cert.Combine

open Idealize.ShloMosaic Idealize.ShloMosaic.ValueIdx

theorem half_eq : half = ((1 / 2 : ℝ) : EReal) := Consts.ofBits_half

/-- One entry of the fused arrangement is the same entry of the combined layer output. -/
theorem entry_eq (X S T : Mat 100000 128) (Ri Ro : Mat 100000 1) (Min Mout : Vc 100000)
    (W1 W3 W5 W3h W5h : Mat 128 128) (b2 b4 b6 : Vc 128) (B : Mat 1 128)
    (hMin : ∀ n : Fin 100000, Min (ix1 n) ≠ 0) (hMout : ∀ n : Fin 100000, Mout (ix1 n) ≠ 0)
    (hRi : ∀ n : Fin 100000, Ri (ix2 n (0 : Fin 1)) = Ideal.div 1 (Min (ix1 n)))
    (hRo : ∀ n : Fin 100000, Ro (ix2 n (0 : Fin 1)) = Ideal.div 1 (Mout (ix1 n)))
    (hW3 : ∀ (k j : Fin 128), W3h (ix2 k j) = half * W3 (ix2 k j))
    (hW5 : ∀ (k j : Fin 128), W5h (ix2 k j) = half * W5 (ix2 k j))
    (hB : ∀ j : Fin 128, B (ix2 (0 : Fin 1) j) = (b2 (ix1 j) + half * b4 (ix1 j)) + half * b6 (ix1 j))
    (n : Fin 100000) (j : Fin 128) :
    fusedEntry X S T Ri Ro W1 W3h W5h B n j = entry X S T Min Mout W1 W3 W5 b2 b4 b6 n j := by
  unfold fusedEntry entry
  rw [hRi n, hRo n, hB j]
  simp only [hW3, hW5, half_eq]
  have key := row_combine (fun k => X (ix2 n k)) (fun k => S (ix2 n k)) (fun k => T (ix2 n k))
    (fun k => W1 (ix2 k j)) (fun k => W3 (ix2 k j)) (fun k => W5 (ix2 k j)) (b2 (ix1 j)) (b4 (ix1 j)) (b6 (ix1 j))
    (Min (ix1 n)) (Mout (ix1 n)) (1 / 2) (by norm_num) (hMin n) (hMout n)
  exact key

/-- The two whole arrays agree. -/
theorem fused_eq_combined (X S T : Mat 100000 128) (Ri Ro : Mat 100000 1) (Min Mout : Vc 100000)
    (W1 W3 W5 W3h W5h : Mat 128 128) (b2 b4 b6 : Vc 128) (B : Mat 1 128)
    (hMin : ∀ n : Fin 100000, Min (ix1 n) ≠ 0) (hMout : ∀ n : Fin 100000, Mout (ix1 n) ≠ 0)
    (hRi : ∀ n : Fin 100000, Ri (ix2 n (0 : Fin 1)) = Ideal.div 1 (Min (ix1 n)))
    (hRo : ∀ n : Fin 100000, Ro (ix2 n (0 : Fin 1)) = Ideal.div 1 (Mout (ix1 n)))
    (hW3 : ∀ (k j : Fin 128), W3h (ix2 k j) = half * W3 (ix2 k j))
    (hW5 : ∀ (k j : Fin 128), W5h (ix2 k j) = half * W5 (ix2 k j))
    (hB : ∀ j : Fin 128, B (ix2 (0 : Fin 1) j) = (b2 (ix1 j) + half * b4 (ix1 j)) + half * b6 (ix1 j)) :
    fused X S T Ri Ro W1 W3h W5h B = combined X S T Min Mout W1 W3 W5 b2 b4 b6 :=
  funext fun i => entry_eq X S T Ri Ro Min Mout W1 W3 W5 W3h W5h b2 b4 b6 B hMin hMout hRi hRo hW3 hW5 hB (i 0) (i 1)

end Cert.Combine

end
-- ==== Proof.KernelValue.lean ====
/-
  The kernel's result array is the combined layer output of its arguments, with the reference's own neighbour sums and
  clamped counts as the aggregates: the fused arrangement the region leaves (blocks to array), read with the
  region-entry arrays the wrapper computed (the sums are the reference's; the factors are reciprocals of its clamped
  counts; the neighbour weights are halved; the bias is folded), is that output by the bridge identity.
-/
import proofs.«123563_j57432302682548_2_alg».proof.Proof.KernelArray
import proofs.«123563_j57432302682548_2_alg».proof.Proof.HostSums
import proofs.«123563_j57432302682548_2_alg».proof.Proof.HostEntries
import proofs.«123563_j57432302682548_2_alg».proof.Proof.Bridge

noncomputable section

namespace Cert.Combine.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

attribute [local irreducible] Idealize.ShloMosaic.StableHlo.after

/-- The fused arrangement of the region-entry arrays is the combined layer output of the arguments. -/
theorem value (c : Dev nD) :
    fused (V m c main_arg0) (V m c main_v15) (V m c main_v35) (V m c main_v24) (V m c main_v44) (V m c main_arg1) (V m c main_v46) (V m c main_v48) (V m c main_v55)
      = combined (m ((c.tc : Thread nD τ).loc main_arg0))
        (Cert.ReferenceIdeal.Read.val_main_v13 (F := Ideal) (m ((c.tc : Thread nD τ).loc main_arg0)) (m ((c.tc : Thread nD τ).loc main_arg7)))
        (Cert.ReferenceIdeal.Read.val_main_v32 (F := Ideal) (m ((c.tc : Thread nD τ).loc main_arg0)) (m ((c.tc : Thread nD τ).loc main_arg7)))
        (Cert.ReferenceIdeal.Read.val_main_v19 (F := Ideal) (m ((c.tc : Thread nD τ).loc main_arg7)))
        (Cert.ReferenceIdeal.Read.val_main_v38 (F := Ideal) (m ((c.tc : Thread nD τ).loc main_arg7)))
        (m ((c.tc : Thread nD τ).loc main_arg1)) (m ((c.tc : Thread nD τ).loc main_arg3)) (m ((c.tc : Thread nD τ).loc main_arg5)) (m ((c.tc : Thread nD τ).loc main_arg2)) (m ((c.tc : Thread nD τ).loc main_arg4)) (m ((c.tc : Thread nD τ).loc main_arg6)) := by
  rw [V_main_arg0 m c, V_main_arg1 m c, Host.sums_in m c, Host.sums_out m c]
  exact fused_eq_combined _ _ _ _ _ _ _ _ _ _ _ _ _ _ _ _
    (Host.clamped_in_ne_zero _) (Host.clamped_out_ne_zero _)
    (Host.factor_in_entry m c) (Host.factor_out_entry m c) (Host.weight_in_entry m c) (Host.weight_out_entry m c)
    (Host.bias_entry m c)

/-- The kernel's run: it terminates, the result array ends at the combined layer output, the arguments are unchanged. -/
theorem run : θ_run defs (onTc (τ := τ) (main (F := Ideal))) ⟨m, fun _ => 0, ρ⟩ fun r => ∀ c : Dev nD,
      r.2.mem ((c : Thread nD τ).loc main_v56) = combined (m ((c.tc : Thread nD τ).loc main_arg0))
        (Cert.ReferenceIdeal.Read.val_main_v13 (F := Ideal) (m ((c.tc : Thread nD τ).loc main_arg0)) (m ((c.tc : Thread nD τ).loc main_arg7)))
        (Cert.ReferenceIdeal.Read.val_main_v32 (F := Ideal) (m ((c.tc : Thread nD τ).loc main_arg0)) (m ((c.tc : Thread nD τ).loc main_arg7)))
        (Cert.ReferenceIdeal.Read.val_main_v19 (F := Ideal) (m ((c.tc : Thread nD τ).loc main_arg7)))
        (Cert.ReferenceIdeal.Read.val_main_v38 (F := Ideal) (m ((c.tc : Thread nD τ).loc main_arg7)))
        (m ((c.tc : Thread nD τ).loc main_arg1)) (m ((c.tc : Thread nD τ).loc main_arg3)) (m ((c.tc : Thread nD τ).loc main_arg5)) (m ((c.tc : Thread nD τ).loc main_arg2)) (m ((c.tc : Thread nD τ).loc main_arg4)) (m ((c.tc : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (value m c), (h c).2⟩) (Region.run m ρ)

end Cert.Combine.KernelValue

end
-- ==== Proof.RefEntry.lean ====
/-
  The reference's result, read entry by entry, is the combined layer output of the spec, with the reference's own
  neighbour sums and clamped counts as the four aggregates.

  Entry (n, j) of each matrix product is the sum over k of the left operand at (n, k) times the weight at (k, j); each
  bias vector is laid as a row and repeated over the rows, so it contributes its entry j; the mean divides entry (n, k)
  of a neighbour sum by the clamped count of node n, which was laid as a column and repeated over the columns.
-/
import proofs.«123563_j57432302682548_2_alg».proof.Proof.Gen.ReferenceIdeal.Read
import proofs.«123563_j57432302682548_2_alg».proof.Proof.Spec

noncomputable section

namespace Cert.Combine.Ref

open Cert.ReferenceIdeal Cert.ReferenceIdeal.Gen Cert.ReferenceIdeal.Read Idealize.ShloMosaic
open Idealize.ShloMosaic.ValueIdx

/-! The composed index functions of the generated read lemmas, as coordinates. -/

theorem left_self (n : Fin 100000) (j k : Fin 128) : lidx_main_v42 (ix2 n j) k = ix2 n k := by
  funext a; match a with | ⟨0, _⟩ => rfl | ⟨1, _⟩ => rfl
theorem right_self (n : Fin 100000) (j k : Fin 128) : ridx_main_v42 (ix2 n j) k = ix2 k j := by
  funext a; match a with | ⟨0, _⟩ => rfl | ⟨1, _⟩ => rfl
theorem left_in (n : Fin 100000) (j k : Fin 128) : lidx_main_v46 (ix2 n j) k = ix2 n k := by
  funext a; match a with | ⟨0, _⟩ => rfl | ⟨1, _⟩ => rfl
theorem right_in (n : Fin 100000) (j k : Fin 128) : ridx_main_v46 (ix2 n j) k = ix2 k j := by
  funext a; match a with | ⟨0, _⟩ => rfl | ⟨1, _⟩ => rfl
theorem left_out (n : Fin 100000) (j k : Fin 128) : lidx_main_v53 (ix2 n j) k = ix2 n k := by
  funext a; match a with | ⟨0, _⟩ => rfl | ⟨1, _⟩ => rfl
theorem right_out (n : Fin 100000) (j k : Fin 128) : ridx_main_v53 (ix2 n j) k = ix2 k j := by
  funext a; match a with | ⟨0, _⟩ => rfl | ⟨1, _⟩ => rfl
theorem bias_self (n : Fin 100000) (j : Fin 128) : idx_main_v43 (idx_main_v44 (ix2 n j)) = ix1 j := by
  funext a; match a with | ⟨0, _⟩ => rfl
theorem bias_in (n : Fin 100000) (j : Fin 128) : idx_main_v47 (idx_main_v48 (ix2 n j)) = ix1 j := by
  funext a; match a with | ⟨0, _⟩ => rfl
theorem bias_out (n : Fin 100000) (j : Fin 128) : idx_main_v54 (idx_main_v55 (ix2 n j)) = ix1 j := by
  funext a; match a with | ⟨0, _⟩ => rfl
theorem count_in (n : Fin 100000) (k : Fin 128) : idx_main_v20 (idx_main_v21 (ix2 n k)) = ix1 n := by
  funext a; match a with | ⟨0, _⟩ => rfl
theorem count_out (n : Fin 100000) (k : Fin 128) : idx_main_v39 (idx_main_v40 (ix2 n k)) = ix1 n := by
  funext a; match a with | ⟨0, _⟩ => rfl

/-- The in-direction mean at (n, k): the neighbour sum at (n, k) divided by the clamped in-degree of node n. -/
theorem mean_in (x0 : (⟨S100000x128, .f32⟩ : BufTy).Contents (Elt Ideal)) (x7 : (⟨S2x800000, .i32⟩ : BufTy).Contents (Elt Ideal)) (n : Fin 100000) (k : Fin 128) :
    val_main_v22 (F := Ideal) x0 x7 (ix2 n k)
      = Ideal.div (val_main_v13 (F := Ideal) x0 x7 (ix2 n k)) (val_main_v19 (F := Ideal) x7 (ix1 n)) := by
  rw [val_main_v22_apply, val_main_v21_apply, val_main_v20_apply, count_in, Ideal.hostDivf_def]

/-- The out-direction mean at (n, k): the neighbour sum at (n, k) divided by the clamped out-degree of node n. -/
theorem mean_out (x0 : (⟨S100000x128, .f32⟩ : BufTy).Contents (Elt Ideal)) (x7 : (⟨S2x800000, .i32⟩ : BufTy).Contents (Elt Ideal)) (n : Fin 100000) (k : Fin 128) :
    val_main_v41 (F := Ideal) x0 x7 (ix2 n k)
      = Ideal.div (val_main_v32 (F := Ideal) x0 x7 (ix2 n k)) (val_main_v38 (F := Ideal) x7 (ix1 n)) := by
  rw [val_main_v41_apply, val_main_v40_apply, val_main_v39_apply, count_out, Ideal.hostDivf_def]

/-- The reference's result array is the combined layer output of its arguments and its own four aggregates. -/
theorem result_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S2x800000, .i32⟩ : BufTy).Contents (Elt Ideal)) :
    val_main_v59 (F := Ideal) x0 x1 x2 x3 x4 x5 x6 x7
      = combined x0 (val_main_v13 (F := Ideal) x0 x7) (val_main_v32 (F := Ideal) x0 x7)
          (val_main_v19 (F := Ideal) x7) (val_main_v38 (F := Ideal) x7) x1 x3 x5 x2 x4 x6 := by
  funext i
  obtain ⟨n, j, rfl⟩ : ∃ (n : Fin 100000) (j : Fin 128), i = ix2 n j := ⟨i 0, i 1, eq_ix2 i⟩
  rw [val_main_v59_apply, val_main_v52_apply, val_main_v45_apply, val_main_v42_apply, val_main_v44_apply,
    val_main_v43_apply, val_main_v51_apply, val_main_v50_apply, val_main_cst_10_apply, val_main_v49_apply,
    val_main_v46_apply, val_main_v48_apply, val_main_v47_apply, val_main_v58_apply, val_main_v57_apply,
    val_main_cst_11_apply, val_main_v56_apply, val_main_v53_apply, val_main_v55_apply, val_main_v54_apply]
  simp only [left_self, right_self, left_in, right_in, left_out, right_out, bias_self, bias_in, bias_out,
    Ideal.addf_def, Ideal.mulf_def, Ideal.ofBits_def]
  simp only [mean_in, mean_out]
  show _ = entry x0 (val_main_v13 (F := Ideal) x0 x7) (val_main_v32 (F := Ideal) x0 x7)
    (val_main_v19 (F := Ideal) x7) (val_main_v38 (F := Ideal) x7) x1 x3 x5 x2 x4 x6 n j
  unfold entry half
  rfl

end Cert.Combine.Ref

end
-- ==== Proof.lean ====
/-
  A bidirectional neighbour-mean graph layer: out = X W₁ + b₂ + ½ (mean_in(X) W₃ + b₄) + ½ (mean_out(X) W₅ + b₆), over
  100000 nodes with 128 features and 800000 edges.

  The reference computes it as written.  The kernel's wrapper gathers and scatter-adds the same neighbour sums (rounding
  the features to a narrow float format on the way, which changes nothing on extended reals), turns the clamped neighbour
  counts into reciprocals, halves the two neighbour weight matrices, folds the three biases into one row, and launches a
  25-point grid whose point t forms rows 4000·t … 4000·t + 3999 of
  X W₁ + (S_in · r_in) W₃' + (S_out · r_out) W₅' + b'.

  The proof: the region leaves that fused arrangement in the result array (blocks to array, over the generated value
  leg); the wrapper's arrays are the reference's own aggregates, their reciprocals, the halved weights and the folded
  bias (read off the wrapper's operations); the reference's result is the combined output (read off its generated run);
  and the two arrangements agree entry by entry on the extended reals, because ½ distributes over every sum and a clamped
  count is not zero.  No entry has to be finite, so the precondition is not used.  The three frames are the generated
  ones; the idealization rewrote nothing.
-/
import proofs.«123563_j57432302682548_2_alg».proof.Defs
import proofs.«123563_j57432302682548_2_alg».proof.Proof.Gen.Kernel
import proofs.«123563_j57432302682548_2_alg».proof.Proof.Gen.Kernel.Skeleton
import proofs.«123563_j57432302682548_2_alg».proof.Proof.Gen.Kernel.Launch
import proofs.«123563_j57432302682548_2_alg».proof.Proof.Gen.Kernel.Points
import proofs.«123563_j57432302682548_2_alg».proof.Proof.Gen.Kernel.Frame
import proofs.«123563_j57432302682548_2_alg».proof.Proof.Gen.KernelIdeal
import proofs.«123563_j57432302682548_2_alg».proof.Proof.Gen.KernelIdeal.Skeleton
import proofs.«123563_j57432302682548_2_alg».proof.Proof.Gen.KernelIdeal.Launch
import proofs.«123563_j57432302682548_2_alg».proof.Proof.Gen.KernelIdeal.Points
import proofs.«123563_j57432302682548_2_alg».proof.Proof.Gen.KernelIdeal.Frame
import proofs.«123563_j57432302682548_2_alg».proof.Proof.Gen.ReferenceIdeal
import proofs.«123563_j57432302682548_2_alg».proof.Proof.Gen.Pre_finite_inputs
import proofs.«123563_j57432302682548_2_alg».proof.Proof.Gen.KernelIdeal.Value
import proofs.«123563_j57432302682548_2_alg».proof.Proof.Gen.ReferenceIdeal.Run
import proofs.«123563_j57432302682548_2_alg».proof.Proof.Gen.ReferenceIdeal.Read
import proofs.«123563_j57432302682548_2_alg».proof.Proof.KernelValue
import proofs.«123563_j57432302682548_2_alg».proof.Proof.RefEntry
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- The idealized kernel runs and leaves its arguments as they were. -/
theorem frame_kernel_ideal : Cert.frame_KernelIdeal := fun m ρ _ => Cert.KernelIdeal.Gen.frame m ρ

/-- The idealized reference runs and leaves its arguments as they were: its generated run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments, both idealized programs end with the combined layer output of those
    arguments in their result arrays. -/
theorem algebraic : Cert.algebraic_KernelIdeal_ReferenceIdeal := by
  intro m ρ m' ρ' _ hagree
  refine ⟨fun c => Cert.Combine.combined (m ((c.tc : Thread Cert.KernelIdeal.nD Cert.KernelIdeal.τ).loc Cert.KernelIdeal.main_arg0))
      (Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7)))
      (Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7)))
      (Cert.ReferenceIdeal.Read.val_main_v19 (F := Ideal) (m ((c.tc : Thread Cert.KernelIdeal.nD Cert.KernelIdeal.τ).loc Cert.KernelIdeal.main_arg7)))
      (Cert.ReferenceIdeal.Read.val_main_v38 (F := Ideal) (m ((c.tc : Thread Cert.KernelIdeal.nD Cert.KernelIdeal.τ).loc Cert.KernelIdeal.main_arg7)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)), Cert.Combine.KernelValue.run m ρ, ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6, e7⟩ := hagree c
  rw [(h c).1, Cert.ReferenceIdeal.Read.val_main_v59_eq, Cert.Combine.Ref.result_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
